-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096x128 : Shape := ⟨4, ![4, 32, 4096, 128]⟩
abbrev S128x128x128 : Shape := ⟨3, ![128, 128, 128]⟩
abbrev S128x128x1 : Shape := ⟨3, ![128, 128, 1]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel
  bcast_S_S128x128x128 : S_.BroadcastsInDim S128x128x128 (![] : Fin 0 → Fin S128x128x128.rank)
  reducesTo_S128x128x128_S_d0_1_2 : S128x128x128.ReducesTo [0, 1, 2] S_
  bcast_S_S128x128x1 : S_.BroadcastsInDim S128x128x1 (![] : Fin 0 → Fin S128x128x1.rank)
  reducesTo_S128x128x1_S_d0_1_2 : S128x128x1.ReducesTo [0, 1, 2] S_

variable [Facts]

def fn {F : FTy → Type} [FloatOps F] (main_arg0 : FVec F S4x32x4096x128 .f32) (main_arg1 : FVec F S128x128x128 .f32) (main_arg2 : FVec F S128x128x1 .f32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  let main_v4 : FVec F S128x128x128 .f32 := Host.absf main_arg1
  let main_cst_0 : FVec F S_ .f32 := constant S_ .f32 0x7F800000#32
  let main_v5 : FVec F S128x128x128 .f32 := broadcastInDim S128x128x128 ![] bcast_S_S128x128x128 main_cst_0
  let main_v6 : IVec S128x128x128 1 := cmpf .olt main_v4 main_v5
  let main_c_1 : IVec S_ 1 := constantI S_ 1 1#1
  let main_v7 : IVec S_ 1 := (fun x v => Host.reduce IntOp.andi x v reducesTo_S128x128x128_S_d0_1_2 h_S_) main_v6 main_c_1
  let main_v8 : IVec S_ 1 := andi main_v3 main_v7
  let main_v9 : FVec F S128x128x1 .f32 := Host.absf main_arg2
  let main_cst_2 : FVec F S_ .f32 := constant S_ .f32 0x7F800000#32
  let main_v10 : FVec F S128x128x1 .f32 := broadcastInDim S128x128x1 ![] bcast_S_S128x128x1 main_cst_2
  let main_v11 : IVec S128x128x1 1 := cmpf .olt main_v9 main_v10
  let main_c_3 : IVec S_ 1 := constantI S_ 1 1#1
  let main_v12 : IVec S_ 1 := (fun x v => Host.reduce IntOp.andi x v reducesTo_S128x128x1_S_d0_1_2 h_S_) main_v11 main_c_3
  let main_v13 : IVec S_ 1 := andi main_v8 main_v12
  main_v13
-- ==== Kernel.lean ====
abbrev S4x32x4096x128 : Shape := ⟨4, ![4, 32, 4096, 128]⟩
abbrev S128x128x128 : Shape := ⟨3, ![128, 128, 128]⟩
abbrev S128x128x1 : Shape := ⟨3, ![128, 128, 1]⟩
abbrev S128x4096x128 : Shape := ⟨3, ![128, 4096, 128]⟩
abbrev S128x1x128 : Shape := ⟨3, ![128, 1, 128]⟩
abbrev S2x4096x128 : Shape := ⟨3, ![2, 4096, 128]⟩
abbrev S2x128x128 : Shape := ⟨3, ![2, 128, 128]⟩
abbrev S2x1x128 : Shape := ⟨3, ![2, 1, 128]⟩
abbrev S2x4096 : Shape := ⟨2, ![2, 4096]⟩
abbrev S2x4096x1 : Shape := ⟨3, ![2, 4096, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x32x4096x128, .f32⟩
  | .hbm, ⟨1, _⟩ => ⟨S128x128x128, .f32⟩
  | .hbm, ⟨2, _⟩ => ⟨S128x128x1, .f32⟩
  | .hbm, ⟨3, _⟩ => ⟨S128x4096x128, .f32⟩
  | .hbm, ⟨4, _⟩ => ⟨S128x1x128, .f32⟩
  | .hbm, ⟨5, _⟩ => ⟨S128x128x128, .bf16⟩
  | .hbm, ⟨6, _⟩ => ⟨S128x4096x128, .f32⟩
  | .hbm, ⟨7, _⟩ => ⟨S4x32x4096x128, .f32⟩
  | .local _ .vmem, ⟨0, _⟩ => ⟨S2x4096x128, .f32⟩
  | .local _ .vmem, ⟨1, _⟩ => ⟨S2x4096x128, .f32⟩
  | .local _ .vmem, ⟨2, _⟩ => ⟨S2x128x128, .bf16⟩
  | .local _ .vmem, ⟨3, _⟩ => ⟨S2x128x128, .bf16⟩
  | .local _ .vmem, ⟨4, _⟩ => ⟨S2x1x128, .f32⟩
  | .local _ .vmem, ⟨5, _⟩ => ⟨S2x1x128, .f32⟩
  | .local _ .vmem, ⟨6, _⟩ => ⟨S2x4096x128, .f32⟩
  | .local _ .vmem, ⟨7, _⟩ => ⟨S2x4096x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x32x4096x128_S128x4096x128 : S4x32x4096x128.ShapeCasts S128x4096x128
  transposes_S128x128x1_S128x1x128_0_2_1 : S128x128x1.Transposes [0, 2, 1] S128x1x128
  bitsLt_bf16_f32 : FTy.bits .bf16 < FTy.bits .f32
  inb_S2x4096x128_S2x4096x128_0_0_0 : ∀ a, (![0, 0, 0] : Fin 3 → Nat) a + S2x4096x128.size a ≤ S2x4096x128.size a
  h_S2x4096x128 : 0 < S2x4096x128.numel
  shapeCasts_S2x4096x128_S2x4096x128 : S2x4096x128.ShapeCasts S2x4096x128
  inb_S2x1x128_S2x1x128_0_0_0 : ∀ a, (![0, 0, 0] : Fin 3 → Nat) a + S2x1x128.size a ≤ S2x1x128.size a
  h_S2x1x128 : 0 < S2x1x128.numel
  shapeCasts_S2x1x128_S2x1x128 : S2x1x128.ShapeCasts S2x1x128
  broadcasts_S2x1x128_S2x4096x128 : S2x1x128.Broadcasts S2x4096x128
  reduces_S2x4096x128_S2x4096 : S2x4096x128.Reduces [2] S2x4096
  shapeCasts_S2x4096_S2x4096x1 : S2x4096.ShapeCasts S2x4096x1
  inb_S2x128x128_S2x128x128_0_0_0 : ∀ a, (![0, 0, 0] : Fin 3 → Nat) a + S2x128x128.size a ≤ S2x128x128.size a
  h_S2x128x128 : 0 < S2x128x128.numel
  shapeCasts_S2x128x128_S2x128x128 : S2x128x128.ShapeCasts S2x128x128
  broadcasts_S2x4096x1_S2x4096x128 : S2x4096x1.Broadcasts S2x4096x128
  shapeCasts_S128x4096x128_S4x32x4096x128 : S128x4096x128.ShapeCasts S4x32x4096x128
  dot_S2x4096x128_S2x128x128_S2x4096x128_2_1_1_2_0_0_wf : DotDims.WF S2x4096x128 S2x128x128 S2x4096x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S128x4096x128.size a
  hwx0_0 : ∀ i : grid0.Coords, EltTy.bits .f32 = 32 ∨ (Rect.block (s := S128x4096x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x128.size a ≤ S128x128x128.size a
  hwx0_1 : ∀ i : grid0.Coords, EltTy.bits .bf16 = 32 ∨ (Rect.block (s := S128x128x128) S2x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S128x1x128.size a
  hwx0_2 : ∀ i : grid0.Coords, EltTy.bits .f32 = 32 ∨ (Rect.block (s := S128x1x128) S2x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096x128.size a ≤ S128x4096x128.size a
  hwx0_3 : ∀ i : grid0.Coords, EltTy.bits .f32 = 32 ∨ (Rect.block (s := S128x4096x128) S2x4096x128.size (cc0_transform_3 i) (hinb0_3 i)).WholeWords (EltTy.packing .f32)

variable [Facts₀]

def dot_S2x4096x128_S2x128x128_S2x4096x128_2_1_1_2_0_0 : DotDims S2x4096x128 S2x128x128 S2x4096x128 where
  lhsContracting := [2]
  rhsContracting := [1]
  lhsNonContracting := [1]
  rhsNonContracting := [2]
  lhsBatch := [0]
  rhsBatch := [0]
  wf := dot_S2x4096x128_S2x128x128_S2x4096x128_2_1_1_2_0_0_wf

abbrev win0_0 : Pipeline.Window sig grid0 :=
  Pipeline.Window.ofSpec (Memref.whole main_v0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32x4096x128 : Shape := ⟨4, ![4, 32, 4096, 128]⟩
abbrev S128x128x128 : Shape := ⟨3, ![128, 128, 128]⟩
abbrev S128x128x1 : Shape := ⟨3, ![128, 128, 1]⟩
abbrev S128x4096x128 : Shape := ⟨3, ![128, 4096, 128]⟩
abbrev S_ : Shape := ⟨0, ![]⟩
abbrev S128x4096x1 : Shape := ⟨3, ![128, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S128x128x128, .f32⟩
  | .hbm, ⟨2, _⟩ => ⟨S128x128x1, .f32⟩
  | .hbm, ⟨3, _⟩ => ⟨S128x4096x128, .f32⟩
  | .hbm, ⟨4, _⟩ => ⟨S_, .f32⟩
  | .hbm, ⟨5, _⟩ => ⟨S128x4096x128, .f32⟩
  | .hbm, ⟨6, _⟩ => ⟨S128x4096x128, .i1⟩
  | .hbm, ⟨7, _⟩ => ⟨S_, .f32⟩
  | .hbm, ⟨8, _⟩ => ⟨S128x4096x128, .f32⟩
  | .hbm, ⟨9, _⟩ => ⟨S128x4096x128, .i1⟩
  | .hbm, ⟨10, _⟩ => ⟨S_, .f32⟩
  | .hbm, ⟨11, _⟩ => ⟨S_, .f32⟩
  | .hbm, ⟨12, _⟩ => ⟨S128x4096x128, .f32⟩
  | .hbm, ⟨13, _⟩ => ⟨S128x4096x128, .f32⟩
  | .hbm, ⟨14, _⟩ => ⟨S128x4096x128, .f32⟩
  | .hbm, ⟨15, _⟩ => ⟨S_, .f32⟩
  | .hbm, ⟨16, _⟩ => ⟨S128x4096x128, .f32⟩
  | .hbm, ⟨17, _⟩ => ⟨S128x4096x128, .f32⟩
  | .hbm, ⟨18, _⟩ => ⟨S128x4096x128, .f32⟩
  | .hbm, ⟨19, _⟩ => ⟨S_, .f32⟩
  | .hbm, ⟨20, _⟩ => ⟨S128x4096x128, .f32⟩
  | .hbm, ⟨21, _⟩ => ⟨S128x4096x128, .f32⟩
  | .hbm, ⟨22, _⟩ => ⟨S128x4096x128, .f32⟩
  | .hbm, ⟨23, _⟩ => ⟨S128x4096x1, .f32⟩
  | .hbm, ⟨24, _⟩ => ⟨S_, .f32⟩
  | .hbm, ⟨25, _⟩ => ⟨S128x4096x1, .f32⟩
  | .hbm, ⟨26, _⟩ => ⟨S128x4096x1, .f32⟩
  | .hbm, ⟨27, _⟩ => ⟨S128x4096x128, .f32⟩
  | .hbm, ⟨28, _⟩ => ⟨S128x4096x128, .f32⟩
  | .hbm, ⟨29, _⟩ => ⟨S4x32x4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_cst_1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v4 : Ref sig .tc := ⟨.hbm, 13, rfl⟩
abbrev main_call0_v5 : Ref sig .tc := ⟨.hbm, 14, rfl⟩
abbrev main_call0_cst_2 : Ref sig .tc := ⟨.hbm, 15, rfl⟩
abbrev main_call0_v6 : Ref sig .tc := ⟨.hbm, 16, rfl⟩
abbrev main_call0_v7 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]

class Facts₀ : Prop where
  shapeCasts_S4x32x4096x128_S128x4096x128 : S4x32x4096x128.ShapeCasts S128x4096x128
  bcast_S_S128x4096x128 : S_.BroadcastsInDim S128x4096x128 (![] : Fin 0 → Fin S128x4096x128.rank)
  bcast_S_S128x4096x1 : S_.BroadcastsInDim S128x4096x1 (![] : Fin 0 → Fin S128x4096x1.rank)
  bcast_S128x4096x1_S128x4096x128_0_1_2 : S128x4096x1.BroadcastsInDim S128x4096x128 (![0, 1, 2] : Fin 3 → Fin S128x4096x128.rank)
  shapeCasts_S128x4096x128_S4x32x4096x128 : S128x4096x128.ShapeCasts S4x32x4096x128
  dot_S128x4096x128_S128x128x128_S128x4096x128_2_1_1_2_0_0_wf : DotDims.WF S128x4096x128 S128x128x128 S128x4096x128 [2] [1] [1] [2] [0] [0]
  dot_S128x4096x128_S128x128x1_S128x4096x1_2_1_1_2_0_0_wf : DotDims.WF S128x4096x128 S128x128x1 S128x4096x1 [2] [1] [1] [2] [0] [0]

variable [Facts₀]

def dot_S128x4096x128_S128x128x128_S128x4096x128_2_1_1_2_0_0 : DotDims S128x4096x128 S128x128x128 S128x4096x128 where
  lhsContracting := [2]
  rhsContracting := [1]
  lhsNonContracting := [1]
  rhsNonContracting := [2]
  lhsBatch := [0]
  rhsBatch := [0]
  wf := dot_S128x4096x128_S128x128x128_S128x4096x128_2_1_1_2_0_0_wf
def dot_S128x4096x128_S128x128x1_S128x4096x1_2_1_1_2_0_0 : DotDims S128x4096x128 S128x128x1 S128x4096x1 where
  lhsContracting := [2]
  rhsContracting := [1]
  lhsNonContracting := [1]
  rhsNonContracting := [2]
  lhsBatch := [0]
  rhsBatch := [0]
  wf := dot_S128x4096x128_S128x128x1_S128x4096x1_2_1_1_2_0_0_wf

class Facts : Prop extends Facts₀ where

variable [Facts]
-- ==== Proof.Spec.lean ====
/-
  Linear (kernelised) attention with the feature map φ(x) = elu(x) + 1, as ONE function of the three arrays.

  For a batch row b, a position l and an output lane e,
      H X KV Z (b, l, e) = (Σ_d φ(X[b,l,d]) · KV[b,d,e]) / (Σ_d φ(X[b,l,d]) · Z[b,d,0] + ε),
  the quotient being the extended reals' division and ε the binary value of the f32 word 0x358637BD.

  The feature map has two spellings.  `phi` compares x with 0 and takes x + 1 above it and exp x elsewhere.
  `phiR` is elu(x) + 1 with elu written through expm1: above 0 it is x + 1; elsewhere it is
  1 · (exp x' − 1) + 1 where x' is x again (the inner selection returns x when x is not above 0).
  They agree on every extended real: where x ≤ 0 the value exp x is a real number in [0, 1]
  (exp ⊥ = 0), so subtracting 1 and adding 1 cancel; ⊤ lies above 0 and never reaches that branch.
-/
import Idealize.ShloMosaic.PureOps.Ideal
import Idealize.ShloMosaic.PureOps.Ideal.Laws
import Idealize.ShloMosaic.PureOps.IdealRules
import Idealize.ShloMosaic.Lib.ValueIdx

noncomputable section

namespace LinAttn

open Idealize.ShloMosaic Idealize.ShloMosaic.ValueIdx

/-- The activations [BH, L, D], the key-value summaries [BH, D, D] and the normalisers [BH, D, 1]. -/
abbrev SX : Shape := ⟨3, ![128, 4096, 128]⟩
abbrev SKV : Shape := ⟨3, ![128, 128, 128]⟩
abbrev SZ : Shape := ⟨3, ![128, 128, 1]⟩

/-- The f32 words 0.0, 1.0 and 9.99999997e-7 as extended reals. -/
abbrev zero : EReal := Ideal.ofBits .f32 0x00000000#32
abbrev one : EReal := Ideal.ofBits .f32 0x3F800000#32
abbrev eps : EReal := Ideal.ofBits .f32 0x358637BD#32

theorem zero_eq : zero = 0 := Ideal.ofBits_zero_f32
theorem one_eq : one = 1 := IdealRules.sign_bit.ideal_onePat .f32

/-- elu(x) + 1 written with one comparison: x + 1 above zero, exp x elsewhere. -/
def phi (x : EReal) : EReal :=
  Scalar.select (Ideal.cmp .ogt x zero) (x + one) (Ideal.exp x)

/-- elu(x) + 1 written through expm1, with the argument of expm1 replaced by 0 above zero. -/
def phiR (x : EReal) : EReal :=
  Scalar.select (Ideal.cmp .ogt x zero) x
    (one * (Ideal.exp (Scalar.select (Ideal.cmp .ogt x zero) zero x) - 1)) + one

/-- exp of an extended real that is not above zero is a real number. -/
theorem exp_real_of_not_pos {x : EReal} (h : ¬ 0 < x) : ∃ r : ℝ, Ideal.exp x = (r : EReal) := by
  induction x using EReal.rec with
  | bot => exact ⟨0, rfl⟩
  | top => exact absurd (EReal.zero_lt_top) h
  | coe r => exact ⟨Real.exp r, rfl⟩

/-- The two spellings of the feature map are one function on the extended reals. -/
theorem phiR_eq_phi (x : EReal) : phiR x = phi x := by
  unfold phiR phi
  simp only [Ideal.cmp, zero_eq, one_eq]
  by_cases h : (0 : EReal) < x
  · simp [Scalar.select, h]
  · obtain ⟨r, hr⟩ := exp_real_of_not_pos h
    simp only [Scalar.select, h, decide_false, BitVec.ofBool_false]
    rw [if_neg (by decide), if_neg (by decide), if_neg (by decide), hr, one_mul]
    rw [← EReal.coe_one, ← EReal.coe_sub, ← EReal.coe_add]
    congr 1; ring

/-- The numerator at (b, l, e): the feature row times column e of the key-value summary of batch row b. -/
def num (X : SX.Idx → EReal) (KV : SKV.Idx → EReal) (b : Fin 128) (l : Fin 4096) (e : Fin 128) : EReal :=
  ∑ d : Fin 128, phi (X (ix3 b l d)) * KV (ix3 b d e)

/-- The denominator at (b, l): the feature row against the normaliser of batch row b, plus ε. -/
def den (X : SX.Idx → EReal) (Z : SZ.Idx → EReal) (b : Fin 128) (l : Fin 4096) : EReal :=
  (∑ d : Fin 128, phi (X (ix3 b l d)) * Z (ix3 b d 0)) + eps

/-- The attention output as one function of the three arrays. -/
def H (X : SX.Idx → EReal) (KV : SKV.Idx → EReal) (Z : SZ.Idx → EReal) : SX.Idx → EReal :=
  fun i => Ideal.div (num X KV (i 0) (i 1) (i 2)) (den X Z (i 0) (i 1))

theorem H_apply (X : SX.Idx → EReal) (KV : SKV.Idx → EReal) (Z : SZ.Idx → EReal)
    (b : Fin 128) (l : Fin 4096) (e : Fin 128) :
    H X KV Z (ix3 b l e) = Ideal.div (num X KV b l e) (den X Z b l) := rfl

/-- The batched input [B, H, L, D]; both programs first merge its two leading axes and last split them again. -/
abbrev SQ : Shape := ⟨4, ![4, 32, 4096, 128]⟩

theorem castIn : SQ.ShapeCasts SX := by decide
theorem castOut : SX.ShapeCasts SQ := by decide

/-- The whole computation: merge the leading axes of Q, attend, split them again. The two re-layouts are the same
    row-major casts on both sides and are never opened. -/
def out (Q : SQ.Idx → EReal) (KV : SKV.Idx → EReal) (Z : SZ.Idx → EReal) : SQ.Idx → EReal :=
  shapeCast SQ (H (shapeCast SX Q castIn) KV Z) castOut

end LinAttn

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.KernelPayload.lean ====
/-
  The value the kernel body stores, read at one index.

  For the loaded blocks x0 : [2, 4096, 128] (activations), x2 : [2, 1, 128] (the normaliser, transposed) and
  x1 : [2, 128, 128] (the key-value summaries), the stored value at (b, l, e) is

      (Σ_d φ(x0[b,l,d]) · x1[b,d,e]) / (Σ_d φ(x0[b,l,d]) · x2[b,0,d] + ε),

  the feature row of position l against column e of block b's key-value summary, over the feature row against block b's
  normaliser plus ε.  Here φ is the feature map written with one comparison (x + 1 above zero, exp x elsewhere), the
  quotient is the extended reals' division, and the narrowing of the feature block before the contraction is the
  identity on extended reals.
-/
import proofs.«157117_j4999341932652_2_alg».proof.Proof.Gen.KernelIdeal.Skeleton
import proofs.«157117_j4999341932652_2_alg».proof.Proof.Spec
import proofs.«157117_j4999341932652_2_alg».proof.Proof.LibLayout
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The contraction's dimension numbers: batch axis 0 of both operands, axis 2 of the left against axis 1 of the right. -/
abbrev dims : DotDims S2x4096x128 S2x128x128 S2x4096x128 := dot_S2x4096x128_S2x128x128_S2x4096x128_2_1_1_2_0_0

/-! ## The feature block -/

/-- The block of features: φ applied to every activation. -/
def feat (x0 : Vec Ideal S2x4096x128 .f32) : FVec Ideal S2x4096x128 .f32 :=
  select
    (cmpf .ogt (shapeCast S2x4096x128 x0 shapeCasts_S2x4096x128_S2x4096x128)
      (broadcast S2x4096x128 (Scalar.ofBits (F := Ideal) .f32 0x00000000#32)))
    (addf (shapeCast S2x4096x128 x0 shapeCasts_S2x4096x128_S2x4096x128)
      (broadcast S2x4096x128 (Scalar.ofBits (F := Ideal) .f32 0x3F800000#32)))
    (exp (shapeCast S2x4096x128 x0 shapeCasts_S2x4096x128_S2x4096x128))

/-- At an index the feature block is φ of the activation there. -/
theorem feat_apply (x0 : Vec Ideal S2x4096x128 .f32) (i : S2x4096x128.Idx) : feat x0 i = LinAttn.phi (x0 i) := by
  unfold feat
  rw [shapeCast_self]
  rfl

/-- The stored value over the feature block. -/
theorem pay_eq (x0 : Vec Ideal S2x4096x128 .f32) (x2 : Vec Ideal S2x1x128 .f32) (x1 : Vec Ideal S2x128x128 .bf16) :
    k0_pay1 (F := Ideal) x0 x2 x1
      = divf
          (matmul dims none (truncf .bf16 (feat x0) bitsLt_bf16_f32)
            (shapeCast S2x128x128 x1 shapeCasts_S2x128x128_S2x128x128 : FVec Ideal S2x128x128 .bf16)
            (constant S2x4096x128 .f32 0x00000000#32))
          (broadcastTo S2x4096x128
            (addf
              (shapeCast S2x4096x1
                (multiReduction .add [2] S2x4096
                  (mulf (feat x0)
                    (broadcastTo S2x4096x128 (shapeCast S2x1x128 x2 shapeCasts_S2x1x128_S2x1x128)
                      broadcasts_S2x1x128_S2x4096x128))
                  0x00000000#32 reduces_S2x4096x128_S2x4096 (.inl rfl) rfl)
                shapeCasts_S2x4096_S2x4096x1)
              (broadcast S2x4096x1 (Scalar.ofBits (F := Ideal) .f32 0x358637BD#32)))
            broadcasts_S2x4096x1_S2x4096x128) := rfl

/-! ## The denominator: the feature row against the normaliser, plus ε -/

/-- The broadcast denominator at (b, l, e): the sum over the feature axis of φ(x0[b,l,d]) · x2[b,0,d], plus ε. -/
theorem den_apply (x0 : Vec Ideal S2x4096x128 .f32) (x2 : Vec Ideal S2x1x128 .f32)
    (b : Fin 2) (l : Fin 4096) (e : Fin 128) :
    broadcastTo S2x4096x128
        (addf
          (shapeCast S2x4096x1
            (multiReduction .add [2] S2x4096
              (mulf (feat x0)
                (broadcastTo S2x4096x128 (shapeCast S2x1x128 x2 shapeCasts_S2x1x128_S2x1x128)
                  broadcasts_S2x1x128_S2x4096x128))
              0x00000000#32 reduces_S2x4096x128_S2x4096 (.inl rfl) rfl)
            shapeCasts_S2x4096_S2x4096x1)
          (broadcast S2x4096x1 (Scalar.ofBits (F := Ideal) .f32 0x358637BD#32)))
        broadcasts_S2x4096x1_S2x4096x128 (ix3 b l e)
      = (∑ d : Fin 128, LinAttn.phi (x0 (ix3 b l d)) * x2 (ix3 b (0 : Fin 1) d)) + LinAttn.eps := by
  -- the broadcast along the last axis reads the unit axis at 0
  refine (PushPull.Layout.bcast_ab1 _ _ b l e).trans ?_
  -- the sum of the row and the splat of ε, added elementwise
  refine congrArg (· + LinAttn.eps) ?_
  -- the inserted unit axis
  refine (PushPull.Layout.cast_ab_ab1 _ _ b l (0 : Fin 1)).trans ?_
  -- the reduction over the last axis is the sum over its coordinates
  refine (PushPull.Layout.sum_abc_2 _ _ _ _ _ b l).trans ?_
  refine Finset.sum_congr rfl fun d _ => ?_
  -- one term: the feature times the normaliser broadcast along the positions
  refine congrArg₂ (· * ·) (feat_apply x0 _) ?_
  refine (PushPull.Layout.bcast_a1b _ _ b l d).trans ?_
  exact congrFun (shapeCast_self x2 _) _

/-! ## The numerator: the feature row against a column of the key-value summary -/

section Coordinates

/-- The left operand's index: the batch axis reads the result's axis 0 … -/
theorem lhs_0 (i : S2x4096x128.Idx) (q : dims.contr.Idx) : (dims.lhsIdx i q 0).val = (i 0).val := by
  unfold DotDims.lhsIdx
  rw [dif_pos (show (0 : Fin S2x4096x128.rank) ∈ dims.lhsBatch by decide)]
  rfl

/-- … the free axis reads the result's axis 1 … -/
theorem lhs_1 (i : S2x4096x128.Idx) (q : dims.contr.Idx) : (dims.lhsIdx i q 1).val = (i 1).val := by
  unfold DotDims.lhsIdx
  rw [dif_neg (show ¬(1 : Fin S2x4096x128.rank) ∈ dims.lhsBatch by decide),
    dif_pos (show (1 : Fin S2x4096x128.rank) ∈ dims.lhsNonContracting by decide)]
  rfl

/-- … and the contracted axis reads the contraction position. -/
theorem lhs_2 (i : S2x4096x128.Idx) (q : dims.contr.Idx) : (dims.lhsIdx i q 2).val = (q ⟨0, by decide⟩).val :=
  dims.lhsIdx_val_of_single rfl i q

/-- The right operand's index: the batch axis reads the result's axis 0 … -/
theorem rhs_0 (i : S2x4096x128.Idx) (q : dims.contr.Idx) : (dims.rhsIdx i q 0).val = (i 0).val := by
  unfold DotDims.rhsIdx
  rw [dif_pos (show (0 : Fin S2x128x128.rank) ∈ dims.rhsBatch by decide)]
  rfl

/-- … the contracted axis reads the contraction position … -/
theorem rhs_1 (i : S2x4096x128.Idx) (q : dims.contr.Idx) : (dims.rhsIdx i q 1).val = (q ⟨0, by decide⟩).val :=
  dims.rhsIdx_val_of_single rfl i q

/-- … and the free axis reads the result's axis 2. -/
theorem rhs_2 (i : S2x4096x128.Idx) (q : dims.contr.Idx) : (dims.rhsIdx i q 2).val = (i 2).val := by
  unfold DotDims.rhsIdx
  rw [dif_neg (show ¬(2 : Fin S2x128x128.rank) ∈ dims.rhsBatch by decide),
    dif_pos (show (2 : Fin S2x128x128.rank) ∈ dims.rhsNonContracting by decide)]
  rfl

end Coordinates

/-- The contraction into the zero block at (b, l, e): the sum over the feature axis of φ(x0[b,l,d]) · x1[b,d,e].
    Narrowing the feature block to the operand format is the identity on extended reals. -/
theorem num_apply (x0 : Vec Ideal S2x4096x128 .f32) (x1 : Vec Ideal S2x128x128 .bf16)
    (b : Fin 2) (l : Fin 4096) (e : Fin 128) :
    matmul dims none (truncf .bf16 (feat x0) bitsLt_bf16_f32)
        (shapeCast S2x128x128 x1 shapeCasts_S2x128x128_S2x128x128 : FVec Ideal S2x128x128 .bf16)
        (constant S2x4096x128 .f32 0x00000000#32) (ix3 b l e)
      = ∑ d : Fin 128, LinAttn.phi (x0 (ix3 b l d)) * x1 (ix3 b d e) := by
  refine (Ideal.matmul_constant_zero_apply dims none _ _ _).trans ?_
  -- the contraction index is its one coordinate
  refine (Equiv.sum_comp (ValueIdx.contrEquiv1 dims 128 rfl rfl).symm _).symm.trans ?_
  refine Finset.sum_congr rfl fun k _ => ?_
  have hk := ValueIdx.contrEquiv1_symm_val dims 128 rfl rfl k
  have el : dims.lhsIdx (ix3 b l e) ((ValueIdx.contrEquiv1 dims 128 rfl rfl).symm k) = ix3 b l k :=
    funext fun a => Fin.ext (by
      match a with
      | ⟨0, _⟩ => exact lhs_0 _ _
      | ⟨1, _⟩ => exact lhs_1 _ _
      | ⟨2, _⟩ => exact (lhs_2 _ _).trans hk)
  have er : dims.rhsIdx (ix3 b l e) ((ValueIdx.contrEquiv1 dims 128 rfl rfl).symm k) = ix3 b k e :=
    funext fun a => Fin.ext (by
      match a with
      | ⟨0, _⟩ => exact rhs_0 _ _
      | ⟨1, _⟩ => exact (rhs_1 _ _).trans hk
      | ⟨2, _⟩ => exact rhs_2 _ _)
  show truncf .bf16 (feat x0) bitsLt_bf16_f32 (dims.lhsIdx (ix3 b l e) ((ValueIdx.contrEquiv1 dims 128 rfl rfl).symm k))
      * (shapeCast S2x128x128 x1 shapeCasts_S2x128x128_S2x128x128 : FVec Ideal S2x128x128 .bf16)
          (dims.rhsIdx (ix3 b l e) ((ValueIdx.contrEquiv1 dims 128 rfl rfl).symm k)) = _
  rw [el, er]
  exact congrArg₂ (· * ·) (feat_apply x0 _) (congrFun (shapeCast_self x1 _) _)

/-! ## The stored value at an index -/

/-- The stored value at (b, l, e) is the quotient of the two sums. -/
theorem pay_apply (x0 : Vec Ideal S2x4096x128 .f32) (x2 : Vec Ideal S2x1x128 .f32) (x1 : Vec Ideal S2x128x128 .bf16)
    (b : Fin 2) (l : Fin 4096) (e : Fin 128) :
    k0_pay1 (F := Ideal) x0 x2 x1 (ix3 b l e)
      = Ideal.div (∑ d : Fin 128, LinAttn.phi (x0 (ix3 b l d)) * x1 (ix3 b d e))
          ((∑ d : Fin 128, LinAttn.phi (x0 (ix3 b l d)) * x2 (ix3 b (0 : Fin 1) d)) + LinAttn.eps) := by
  rw [pay_eq]
  exact congrArg₂ Ideal.div (num_apply x0 x1 b l e) (den_apply x0 x2 b l e)

end Cert.KernelIdeal.Payload

end
-- ==== Proof.KernelBlocks.lean ====
/-
  From blocks to the array.

  The grid has 64 points; at point t every window's block index is (t, 0, 0), so the point holds batch rows 2t and
  2t + 1 of the activations [128, 4096, 128], of the key-value summaries [128, 128, 128] and of the normaliser rows
  [128, 1, 128], each whole along its other axes, and writes back the same two batch rows of the output.

  `G3` is the attention output as one function of the three arrays the blocks are cut from.  The body's stored
  value at (b, l, e) of point t's block depends only on batch row 2t + b of the three arrays, and is `G3` at
  (2t + b, l, e) (`point_eq`); hence what point t writes back is block t of `G3` (`flushed3_eq`).  Row r of the
  output lies in the block of point r / 2 (`cover3`), so after the run the output array is `G3` (`final3`).
-/
import proofs.«157117_j4999341932652_2_alg».proof.Proof.Gen.KernelIdeal.Frame
import proofs.«157117_j4999341932652_2_alg».proof.Proof.Spec
import proofs.«157117_j4999341932652_2_alg».proof.Proof.KernelPayload
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Payload

variable (m : (ℓ : Loc nD τ sig) → Buf (Elt Ideal) ℓ) (ρ : Dev nD → PrngReg)

theorem hz : (![0, 0, 0] : Fin 3 → Nat) = fun _ => 0 := funext fun a => by fin_cases a <;> rfl

/-- The attention output over the three arrays as the region finds them: activations [128, 4096, 128], key-value
    summaries [128, 128, 128] and the normalisers laid out as rows, [128, 1, 128]. -/
def G3 (A0 : S128x4096x128.Idx → EReal) (A1 : S128x128x128.Idx → EReal) (A2 : S128x1x128.Idx → EReal) :
    S128x4096x128.Idx → EReal := fun i =>
  Ideal.div (∑ d : Fin 128, LinAttn.phi (A0 (ix3 (i 0) (i 1) d)) * A1 (ix3 (i 0) d (i 2)))
    ((∑ d : Fin 128, LinAttn.phi (A0 (ix3 (i 0) (i 1) d)) * A2 (ix3 (i 0) (0 : Fin 1) d)) + LinAttn.eps)

/-- Every window's block index at point t is (t, 0, 0): point t holds batch rows 2t and 2t + 1, whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Block t of the activations at (b, l, d) is the array at row 2t + b. -/
theorem read0 (c : Dev nD) (t : Fin cfg0.N) (b : Fin 2) (l : Fin 4096) (d : Fin 128) (i : S128x4096x128.Idx)
    (h0 : (i 0).val = 2 * t.val + b.val) (h1 : (i 1).val = l.val) :
    iblk m c 0 t (ix3 b l d) = V m c main_v0 (ix3 (i 0) (i 1) d) := by
  show V m c main_v0 (((cfg0.win 0).blk t).view.emb (ix3 b l d)) = _
  refine congrArg _ ?_
  obtain ⟨e0, e1, e2, -⟩ := idx_facts t
  funext a; apply Fin.ext
  match a with
  | ⟨0, _⟩ => show win0_0.index t (0 : Fin 3) * 2 + 1 * b.val = (i 0).val; omega
  | ⟨1, _⟩ => show win0_0.index t (1 : Fin 3) * 4096 + 1 * l.val = (i 1).val; omega
  | ⟨2, _⟩ => show win0_0.index t (2 : Fin 3) * 128 + 1 * d.val = d.val; omega

/-- Block t of the key-value summaries at (b, d, e) is the array at row 2t + b. -/
theorem read1 (c : Dev nD) (t : Fin cfg0.N) (b : Fin 2) (d : Fin 128) (e : Fin 128) (i : S128x4096x128.Idx)
    (h0 : (i 0).val = 2 * t.val + b.val) (h2 : (i 2).val = e.val) :
    iblk m c 1 t (ix3 b d e) = V m c main_v2 (ix3 (i 0) d (i 2)) := by
  show V m c main_v2 (((cfg0.win 1).blk t).view.emb (ix3 b d e)) = _
  refine congrArg _ ?_
  obtain ⟨-, -, -, e0, e1, e2, -⟩ := idx_facts t
  funext a; apply Fin.ext
  match a with
  | ⟨0, _⟩ => show win0_1.index t (0 : Fin 3) * 2 + 1 * b.val = (i 0).val; omega
  | ⟨1, _⟩ => show win0_1.index t (1 : Fin 3) * 128 + 1 * d.val = d.val; omega
  | ⟨2, _⟩ => show win0_1.index t (2 : Fin 3) * 128 + 1 * e.val = (i 2).val; omega

/-- Block t of the normaliser rows at (b, 0, d) is the array at row 2t + b. -/
theorem read2 (c : Dev nD) (t : Fin cfg0.N) (b : Fin 2) (d : Fin 128) (i : S128x4096x128.Idx)
    (h0 : (i 0).val = 2 * t.val + b.val) :
    iblk m c 2 t (ix3 b (0 : Fin 1) d) = V m c main_v1 (ix3 (i 0) (0 : Fin 1) d) := by
  show V m c main_v1 (((cfg0.win 2).blk t).view.emb (ix3 b (0 : Fin 1) d)) = _
  refine congrArg _ ?_
  obtain ⟨-, -, -, -, -, -, e0, e1, e2, -⟩ := idx_facts t
  funext a; apply Fin.ext
  match a with
  | ⟨0, _⟩ => show win0_2.index t (0 : Fin 3) * 2 + 1 * b.val = (i 0).val; omega
  | ⟨1, _⟩ => show win0_2.index t (1 : Fin 3) * 1 + 1 * 0 = 0; omega
  | ⟨2, _⟩ => show win0_2.index t (2 : Fin 3) * 128 + 1 * d.val = d.val; omega

/-- What the body stores at (b, l, e) of point t's block is the attention output at the array index the block puts
    there. -/
theorem point_eq (c : Dev nD) (t : Fin cfg0.N) (b : Fin 2) (l : Fin 4096) (e : Fin 128) :
    k0_pay1 (F := Ideal) (iblk m c 0 t) (iblk m c 2 t) (iblk m c 1 t) (ix3 b l e)
      = G3 (V m c main_v0) (V m c main_v2) (V m c main_v1) (((cfg0.win 3).blk t).view.emb (ix3 b l e)) := by
  refine (pay_apply (iblk m c 0 t) (iblk m c 2 t) (iblk m c 1 t) b l e).trans ?_
  obtain ⟨-, -, -, -, -, -, -, -, -, e0, e1, e2⟩ := idx_facts t
  have h0 : ((((cfg0.win 3).blk t).view.emb (ix3 b l e)) 0).val = 2 * t.val + b.val := by
    show win0_3.index t (0 : Fin 3) * 2 + 1 * b.val = _; omega
  have h1 : ((((cfg0.win 3).blk t).view.emb (ix3 b l e)) 1).val = l.val := by
    show win0_3.index t (1 : Fin 3) * 4096 + 1 * l.val = _; omega
  have h2 : ((((cfg0.win 3).blk t).view.emb (ix3 b l e)) 2).val = e.val := by
    show win0_3.index t (2 : Fin 3) * 128 + 1 * e.val = _; omega
  unfold G3
  refine congrArg₂ Ideal.div (Finset.sum_congr rfl fun d _ => ?_) (congrArg (· + LinAttn.eps) (Finset.sum_congr rfl fun d _ => ?_))
  · rw [read0 m c t b l d _ h0 h1, read1 m c t b d e _ h0 h2]
  · rw [read0 m c t b l d _ h0 h1, read2 m c t b d _ h0]

/-- WHAT POINT t WRITES BACK is block t of the attention output over the arrays as the region finds them. -/
theorem flushed3_eq (c : Dev nD) (t : Fin cfg0.N) :
    (dats m 0 c).flushed 3 t
      = ((cfg0.win 3).blk t).view.read (Elt Ideal) (G3 (V m c main_v0) (V m c main_v2) (V m c main_v1)) := by
  show (cfg0.win 3).cut (grid0.coords t) ((dats m 0 c).after 3 t) = _
  rw [after0_3]
  unfold out0_3
  rw [View.canon_unit_zero hz]
  simp only [View.ld_unit_zero (S := S2x4096x128) hz, View.ld_unit_zero (S := S2x1x128) hz,
    View.ld_unit_zero (S := S2x128x128) hz]
  funext j
  have hj : j = @ix3 2 4096 128 (j 0) (j 1) (j 2) := funext fun a => by
    match a with | ⟨0, _⟩ => rfl | ⟨1, _⟩ => rfl | ⟨2, _⟩ => rfl
  rw [hj]
  exact point_eq m c t (j 0) (j 1) (j 2)

/-- An index of the output array is in point t's block iff each coordinate is in the block's range on its axis. -/
theorem mem_blk3 (t : Fin cfg0.N) (i : S128x4096x128.Idx) :
    i ∈ ((cfg0.win 3).blk t).view.set ↔ ∀ a : Fin 3, win0_3.index t a * S2x4096x128.size a ≤ (i a).val
      ∧ (i a).val < win0_3.index t a * S2x4096x128.size a + S2x4096x128.size a := by
  show i ∈ ((View.whole main_v3).slice (win0_3.rect t)).set ↔ _
  rw [View.set_slice_whole, Rect.mem_set_unit]
  exact Iff.rfl

/-- Every batch-row pair is some point's block. -/
theorem idx_onto : ∀ q : Fin 64, ∃ t : Fin cfg0.N, win0_3.index t = ![q.val, 0, 0] :=
  (by decide +kernel : ∀ q : Fin 64, ∃ t : Fin grid0.N, win0_3.index t = ![q.val, 0, 0])

/-- The blocks tile the output array: row r lies in the block of point r / 2. -/
theorem cover3 (i : S128x4096x128.Idx) :
    ∃ t : Fin cfg0.N, (cfg0.win 3).flush t = true ∧ i ∈ ((cfg0.win 3).blk t).view.set := by
  have hi0 : (i 0).val < 128 := (i 0).isLt
  have hi1 : (i 1).val < 4096 := (i 1).isLt
  have hi2 : (i 2).val < 128 := (i 2).isLt
  obtain ⟨t, ht⟩ := idx_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- THE OUTPUT ARRAY after the run is the attention output over the arrays as the region finds them. -/
theorem final3 (c : Dev nD) :
    (dats m 0 c).arrAt 3 cfg0.N = G3 (V m c main_v0) (V m c main_v2) (V m c main_v1) :=
  (dats m 0 c).arrAt_eq_of_cover 3 _ (fun t _ => flushed3_eq m c t) cover3

end Cert.KernelIdeal.Blocks

end
-- ==== Proof.KernelRun.lean ====
/-
  The kernel's program around its grid, read.

  Before the grid three lines prepare the arrays the blocks are cut from: Q's two leading axes are merged, Z's last
  two axes are exchanged (so that the normaliser of a batch row is a row), and KV is narrowed, which at exact values
  changes nothing.  Over those three arrays the grid's output `G3` is the attention output `LinAttn.H` of the merged
  Q, KV and Z themselves (`G3_eq_H`): row (b, 0, d) of the exchanged normaliser is Z at (b, d, 0).  After the grid
  one line splits the batch axis of the output again.  So the program ends with its result buffer at
  `LinAttn.out Q KV Z` and its arguments unchanged (`run`).
-/
import proofs.«157117_j4999341932652_2_alg».proof.Proof.KernelBlocks

set_option maxRecDepth 16384

noncomputable section

namespace Cert.KernelIdeal.KRun

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Blocks

variable (m : (ℓ : Loc nD τ sig) → Buf (Elt Ideal) ℓ) (ρ : Dev nD → PrngReg)

/-! ## The arrays as the region finds them -/

/-- The activations the region reads are Q with its two leading axes merged. -/
theorem V_v0 (c : Dev nD) : (V m c main_v0 : S128x4096x128.Idx → EReal)
    = shapeCast S128x4096x128 (m ((c : Thread nD τ).loc main_arg0)) shapeCasts_S4x32x4096x128_S128x4096x128 := by
  show StableHlo.after hostOps0 (fun b => m (c, b)) (Proc.devRef .tc main_v0) = _
  after_results
  rfl

/-- The normaliser rows the region reads are Z with its last two axes exchanged. -/
theorem V_v1 (c : Dev nD) : (V m c main_v1 : S128x1x128.Idx → EReal)
    = transpose S128x1x128 [0, 2, 1] (m ((c : Thread nD τ).loc main_arg2)) transposes_S128x128x1_S128x1x128_0_2_1 := by
  show StableHlo.after hostOps0 (fun b => m (c, b)) (Proc.devRef .tc main_v1) = _
  after_results

/-- The key-value summaries the region reads are KV in the narrower format, which at exact values is KV. -/
theorem V_v2 (c : Dev nD) : (V m c main_v2 : S128x128x128.Idx → EReal)
    = truncf (F := Ideal) .bf16 (m ((c : Thread nD τ).loc main_arg1)) bitsLt_bf16_f32 := by
  show StableHlo.after hostOps0 (fun b => m (c, b)) (Proc.devRef .tc main_v2) = _
  after_results

/-- Over the merged activations X, KV in the narrower format and Z with its axes exchanged, the region's output is
    the attention output of X, KV and Z: the change of format is the identity at exact values, and row (b, 0, d) of
    the exchanged normaliser is Z at (b, d, 0). -/
theorem G3_eq_H (X : S128x4096x128.Idx → EReal) (KV : S128x128x128.Idx → EReal) (Z : S128x128x1.Idx → EReal) :
    G3 X (truncf (F := Ideal) .bf16 KV bitsLt_bf16_f32)
        (transpose S128x1x128 [0, 2, 1] Z transposes_S128x128x1_S128x1x128_0_2_1)
      = LinAttn.H X KV Z := by
  funext i
  obtain ⟨b, l, e, rfl⟩ : ∃ (b : Fin 128) (l : Fin 4096) (e : Fin 128), i = ix3 b l e := ⟨i 0, i 1, i 2, eq_ix3 i⟩
  rw [LinAttn.H_apply]
  unfold G3 LinAttn.num LinAttn.den
  refine congrArg₂ Ideal.div (Finset.sum_congr rfl fun d _ => ?_)
    (congrArg (· + LinAttn.eps) (Finset.sum_congr rfl fun d _ => ?_))
  · rfl
  · show LinAttn.phi (X (ix3 b l d)) * transpose S128x1x128 [0, 2, 1] Z transposes_S128x128x1_S128x1x128_0_2_1 (ix3 b (0 : Fin 1) d)
      = LinAttn.phi (X (ix3 b l d)) * Z (ix3 b d (0 : Fin 1))
    rw [transpose_ix3_021_apply]

/-! ## The line after the region -/

/-- The result buffer after the closing re-layout is the region's output array with its leading axis split. -/
theorem tail_v4 (c : Dev nD) :
    Pipeline.afterTail₀ cfgs (dats m) 0 (V0 m) [hostOps1] c main_v4
      = shapeCast S4x32x4096x128 ((dats m 0 c).arrAt 3 cfg0.N) shapeCasts_S128x4096x128_S4x32x4096x128 := by
  unfold Pipeline.afterTail₀
  show StableHlo.after hostOps1 _ (Proc.devRef .tc main_v4) = _
  after_results
  have hw := Pipeline.withArrays_arr spec0 launch0.win.arr_inj c (V0 m c) (fun w => (dats m 0 c).arrAt w cfg0.N) 3
  funext i
  show shapeCast S4x32x4096x128 (Pipeline.withArrays spec0 c (V0 m c) (fun w => (dats m 0 c).arrAt w cfg0.N)
      (Proc.devRef .tc (Pipeline.arrRef spec0 3))) shapeCasts_S128x4096x128_S4x32x4096x128 i = _
  rw [hw]

/-- The result buffer after the run: Q's leading axes merged, attended, split again. -/
theorem value_v4 (c : Dev nD) :
    Pipeline.afterTail₀ cfgs (dats m) 0 (V0 m) [hostOps1] c main_v4
      = LinAttn.out (m ((c : Thread nD τ).loc main_arg0)) (m ((c : Thread nD τ).loc main_arg1))
          (m ((c : Thread nD τ).loc main_arg2)) := by
  rw [tail_v4, final3, V_v0, V_v1, V_v2, G3_eq_H]
  rfl

/-! ## The run, read -/

/-- Every weakly fair execution of the kernel's program terminates with the result buffer at the attention output of
    the three argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v4)
        = LinAttn.out (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (value_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefRun.lean ====
/-
  The reference program's @main as ONE straight line of host operations, and its run.

  @main reshapes the input [4,32,4096,128] to [128,4096,128], calls @elu on it, adds 1, takes two batched
  contractions of the result (against the key-value summaries and against the normalisers), adds ε to the
  second, broadcasts it along the last axis, divides, and reshapes back.  @elu is itself a function with
  two calls (the two `where`s): a call executes the callee's body on the operands, so unfolding the three
  function bodies at their call sites leaves a line of twenty-seven operations over the buffers the call
  records name:

    1        v0  = reshape arg0
    2 – 16   @elu(v0): zero, its broadcast, the comparison v0 > 0 (twice, each with its own zero);
             @_where: the scalar zero converted, broadcast, select(v0 > 0, 0, v0); expm1 of that;
             one, its broadcast, the product 1 · expm1(…); @_where_0: select(v0 > 0, v0, 1 · expm1(…))
    17 – 19  one, its broadcast, v3 = elu(v0) + 1
    20, 21   the two contractions of v3 (batch axis 0 with 0, axis 2 against axis 1)
    22 – 25  ε, its broadcast, the sum, the broadcast along the last axis
    26, 27   the quotient, the reshape back to [4,32,4096,128]

  Every weakly fair execution of the line terminates, and each buffer then holds the fold of the operations
  over the launch contents (`run_main`).
-/
import proofs.«157117_j4999341932652_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

/-- @main's twenty-seven operations in order, the calls of @elu, @_where and @_where_0 unfolded. -/
abbrev ops : List (HloOp τ sig (Elt F)) :=
  [ reshape main_arg0 main_v0 rfl shapeCasts_S4x32x4096x128_S128x4096x128,
    TRef.nullary main_call0.cst (constant S_ .f32 0x00000000#32),
    TRef.unary main_call0.cst main_call0.v0 (broadcastInDim S128x4096x128 ![] bcast_S_S128x4096x128),
    TRef.binary (.of main_v0) main_call0.v0 main_call0.v1 (cmpf .ogt),
    TRef.nullary main_call0.cst_0 (constant S_ .f32 0x00000000#32),
    TRef.unary main_call0.cst_0 main_call0.v2 (broadcastInDim S128x4096x128 ![] bcast_S_S128x4096x128),
    TRef.binary (.of main_v0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S128x4096x128 ![] bcast_S_S128x4096x128),
    TRef.ternary main_call0.v3 main_call0.call0.v1 (.of main_v0) main_call0.call0.v2 select,
    TRef.unary main_call0.call0.v2 main_call0.v5 Host.expm1,
    TRef.nullary main_call0.cst_2 (constant S_ .f32 0x3F800000#32),
    TRef.unary main_call0.cst_2 main_call0.v6 (broadcastInDim S128x4096x128 ![] bcast_S_S128x4096x128),
    TRef.binary main_call0.v6 main_call0.v5 main_call0.v7 mulf,
    TRef.ternary main_call0.v1 (.of main_v0) main_call0.v7 main_call0.call1.v0 select,
    nullary main_cst (constant S_ .f32 0x3F800000#32),
    unary main_cst main_v2 (broadcastInDim S128x4096x128 ![] bcast_S_S128x4096x128 : (⟨S_, .f32⟩ : BufTy).Contents (Elt F) → (⟨S128x4096x128, .f32⟩ : BufTy).Contents (Elt F)),
    binary main_v1 main_v2 main_v3 (addf : (⟨S128x4096x128, .f32⟩ : BufTy).Contents (Elt F) → (⟨S128x4096x128, .f32⟩ : BufTy).Contents (Elt F) → (⟨S128x4096x128, .f32⟩ : BufTy).Contents (Elt F)),
    binary main_v3 main_arg1 main_v4 ((fun l r => Host.dotGeneral dot_S128x4096x128_S128x128x128_S128x4096x128_2_1_1_2_0_0 none l r) : (⟨S128x4096x128, .f32⟩ : BufTy).Contents (Elt F) → (⟨S128x128x128, .f32⟩ : BufTy).Contents (Elt F) → (⟨S128x4096x128, .f32⟩ : BufTy).Contents (Elt F)),
    binary main_v3 main_arg2 main_v5 ((fun l r => Host.dotGeneral dot_S128x4096x128_S128x128x1_S128x4096x1_2_1_1_2_0_0 none l r) : (⟨S128x4096x128, .f32⟩ : BufTy).Contents (Elt F) → (⟨S128x128x1, .f32⟩ : BufTy).Contents (Elt F) → (⟨S128x4096x1, .f32⟩ : BufTy).Contents (Elt F)),
    nullary main_cst_0 (constant S_ .f32 0x358637BD#32),
    unary main_cst_0 main_v6 (broadcastInDim S128x4096x1 ![] bcast_S_S128x4096x1 : (⟨S_, .f32⟩ : BufTy).Contents (Elt F) → (⟨S128x4096x1, .f32⟩ : BufTy).Contents (Elt F)),
    binary main_v5 main_v6 main_v7 (addf : (⟨S128x4096x1, .f32⟩ : BufTy).Contents (Elt F) → (⟨S128x4096x1, .f32⟩ : BufTy).Contents (Elt F) → (⟨S128x4096x1, .f32⟩ : BufTy).Contents (Elt F)),
    unary main_v7 main_v8 (broadcastInDim S128x4096x128 ![0, 1, 2] bcast_S128x4096x1_S128x4096x128_0_1_2 : (⟨S128x4096x1, .f32⟩ : BufTy).Contents (Elt F) → (⟨S128x4096x128, .f32⟩ : BufTy).Contents (Elt F)),
    binary main_v4 main_v8 main_v9 (Host.divf : (⟨S128x4096x128, .f32⟩ : BufTy).Contents (Elt F) → (⟨S128x4096x128, .f32⟩ : BufTy).Contents (Elt F) → (⟨S128x4096x128, .f32⟩ : BufTy).Contents (Elt F)),
    reshape main_v9 main_v10 rfl shapeCasts_S128x4096x128_S4x32x4096x128 ]

set_option maxRecDepth 1024 in
/-- @main is that straight line: the three functions' definitions unfolded at their calls, both sides are one
    chain of steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., reshape_bufs_sub ..⟩

/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.lean ====
/-
  The reference's value as a function of the three arrays, and that it is the attention `LinAttn.H`.

  After its first reshape the reference works on X : [128, 4096, 128].  It forms

      feat X = select(X > 0, X, 1 · expm1(select(X > 0, 0, X))) + 1            (elu, plus one)

  elementwise, and then

      G X KV Z = (feat X ·₁ KV) / bcast((feat X ·₂ Z) + ε)

  where ·₁ and ·₂ are the batched contractions (batch axis 0 with 0, axis 2 of the left operand against axis 1
  of the right), the sum with ε is taken on [128, 4096, 1] and then copied along the last axis, and the quotient
  is the extended reals' division.

  Read at an element x, feat is literally the spelling `LinAttn.phiR x` of the feature map: the comparison with
  the broadcast zero is the comparison with 0, expm1 is exp − 1, the product with the broadcast one is 1 · _.
  By `LinAttn.phiR_eq_phi` that is `LinAttn.phi x`.  Each contraction, read at (b, l, e), is the sum over the
  contracted coordinate d of feat X (b, l, d) times the right operand at (b, d, e); the broadcast of a
  [128, 4096, 1] array read at (b, l, e) is the array at (b, l, 0).  So G X KV Z at (b, l, e) is
  (Σ_d φ(X[b,l,d]) · KV[b,d,e]) / (Σ_d φ(X[b,l,d]) · Z[b,d,0] + ε), which is `LinAttn.H X KV Z` there.
-/
import proofs.«157117_j4999341932652_2_alg».proof.Proof.Gen.ReferenceIdeal
import proofs.«157117_j4999341932652_2_alg».proof.Proof.Spec
import Idealize.ShloMosaic.Lib.StackMember

noncomputable section

namespace Cert.ReferenceIdeal.RefRead

open Cert.ReferenceIdeal Cert.ReferenceIdeal.Gen Idealize.ShloMosaic Idealize.ShloMosaic.ValueIdx

/-- elu plus one over the whole array, operation by operation as the reference computes it. -/
def feat (X : FVec Ideal S128x4096x128 .f32) : FVec Ideal S128x4096x128 .f32 :=
  addf
    (select
      (cmpf .ogt X (broadcastInDim S128x4096x128 ![] bcast_S_S128x4096x128 (constant (F := Ideal) S_ .f32 0x00000000#32)))
      X
      (mulf
        (broadcastInDim S128x4096x128 ![] bcast_S_S128x4096x128 (constant (F := Ideal) S_ .f32 0x3F800000#32))
        (Host.expm1
          (select
            (cmpf .ogt X (broadcastInDim S128x4096x128 ![] bcast_S_S128x4096x128 (constant (F := Ideal) S_ .f32 0x00000000#32)))
            (broadcastInDim S128x4096x128 ![] bcast_S_S128x4096x128 (constant (F := Ideal) S_ .f32 0x00000000#32))
            X))))
    (broadcastInDim S128x4096x128 ![] bcast_S_S128x4096x128 (constant (F := Ideal) S_ .f32 0x3F800000#32))

/-- The reference between its two reshapes: the two contractions of the features, ε added to the second, the quotient. -/
def G (X : FVec Ideal S128x4096x128 .f32) (KV : FVec Ideal S128x128x128 .f32) (Z : FVec Ideal S128x128x1 .f32) :
    FVec Ideal S128x4096x128 .f32 :=
  Host.divf
    (Host.dotGeneral dot_S128x4096x128_S128x128x128_S128x4096x128_2_1_1_2_0_0 none (feat X) KV)
    (broadcastInDim S128x4096x128 ![0, 1, 2] bcast_S128x4096x1_S128x4096x128_0_1_2
      (addf
        (Host.dotGeneral dot_S128x4096x128_S128x128x1_S128x4096x1_2_1_1_2_0_0 none (feat X) Z)
        (broadcastInDim S128x4096x1 ![] bcast_S_S128x4096x1 (constant (F := Ideal) S_ .f32 0x358637BD#32))))

/-- At an element the reference's features are the expm1 spelling of the feature map: every operation of `feat`
    reads through at the index, a broadcast scalar being its value everywhere. -/
theorem feat_apply (X : FVec Ideal S128x4096x128 .f32) (i : S128x4096x128.Idx) :
    feat X i = LinAttn.phiR (X i) := rfl

/-- A [128, 4096, 1] array copied along the last axis, read at (b, l, e), is the array at (b, l, 0). -/
theorem bcast_last_apply (Y : FVec Ideal S128x4096x1 .f32) (b : Fin 128) (l : Fin 4096) (e : Fin 128) :
    broadcastInDim S128x4096x128 ![0, 1, 2] bcast_S128x4096x1_S128x4096x128_0_1_2 Y (ix3 b l e)
      = Y (ix3 b l (0 : Fin 1)) := by
  unfold broadcastInDim
  refine congrArg Y ?_
  funext a
  match a with
  | ⟨0, _⟩ => rfl
  | ⟨1, _⟩ => rfl
  | ⟨2, _⟩ => rfl

/-- The numerator's contraction at (b, l, e). -/
theorem dotKV_apply (X : FVec Ideal S128x4096x128 .f32) (KV : FVec Ideal S128x128x128 .f32)
    (b : Fin 128) (l : Fin 4096) (e : Fin 128) :
    Host.dotGeneral dot_S128x4096x128_S128x128x128_S128x4096x128_2_1_1_2_0_0 none (feat X) KV (ix3 b l e)
      = ∑ d : Fin 128, LinAttn.phi (X (ix3 b l d)) * KV (ix3 b d e) := by
  refine (StackMember.dotGeneral_stack_apply (G := 128) (m := 4096) (n := 128) (k := 128)
    dot_S128x4096x128_S128x128x128_S128x4096x128_2_1_1_2_0_0_wf none (feat X) KV b l e).trans ?_
  refine Finset.sum_congr rfl fun d _ => ?_
  rw [feat_apply, LinAttn.phiR_eq_phi]

/-- The denominator's contraction at (b, l, 0). -/
theorem dotZ_apply (X : FVec Ideal S128x4096x128 .f32) (Z : FVec Ideal S128x128x1 .f32)
    (b : Fin 128) (l : Fin 4096) :
    Host.dotGeneral dot_S128x4096x128_S128x128x1_S128x4096x1_2_1_1_2_0_0 none (feat X) Z (ix3 b l (0 : Fin 1))
      = ∑ d : Fin 128, LinAttn.phi (X (ix3 b l d)) * Z (ix3 b d (0 : Fin 1)) := by
  refine (StackMember.dotGeneral_stack_apply (G := 128) (m := 4096) (n := 1) (k := 128)
    dot_S128x4096x128_S128x128x1_S128x4096x1_2_1_1_2_0_0_wf none (feat X) Z b l (0 : Fin 1)).trans ?_
  refine Finset.sum_congr rfl fun d _ => ?_
  rw [feat_apply, LinAttn.phiR_eq_phi]

/-- The reference between its reshapes is the attention of the specification. -/
theorem G_eq (X : FVec Ideal S128x4096x128 .f32) (KV : FVec Ideal S128x128x128 .f32) (Z : FVec Ideal S128x128x1 .f32) :
    G X KV Z = LinAttn.H X KV Z := by
  funext i
  obtain ⟨b, l, e, rfl⟩ : ∃ (b : Fin 128) (l : Fin 4096) (e : Fin 128), i = ix3 b l e := ⟨i 0, i 1, i 2, eq_ix3 i⟩
  rw [LinAttn.H_apply]
  show Ideal.div
      (Host.dotGeneral dot_S128x4096x128_S128x128x128_S128x4096x128_2_1_1_2_0_0 none (feat X) KV (ix3 b l e))
      (broadcastInDim S128x4096x128 ![0, 1, 2] bcast_S128x4096x1_S128x4096x128_0_1_2
        (addf
          (Host.dotGeneral dot_S128x4096x128_S128x128x1_S128x4096x1_2_1_1_2_0_0 none (feat X) Z)
          (broadcastInDim S128x4096x1 ![] bcast_S_S128x4096x1 (constant (F := Ideal) S_ .f32 0x358637BD#32)))
        (ix3 b l e)) = _
  rw [bcast_last_apply, addf_apply, dotKV_apply, dotZ_apply]
  rfl

/-- With the two reshapes around it, the reference's result is `LinAttn.out`: the reshapes are the same row-major
    casts on both sides and are not opened. -/
theorem out_eq (Q : FVec Ideal S4x32x4096x128 .f32) (KV : FVec Ideal S128x128x128 .f32) (Z : FVec Ideal S128x128x1 .f32)
    (h1 : S4x32x4096x128.ShapeCasts S128x4096x128) (h2 : S128x4096x128.ShapeCasts S4x32x4096x128) :
    shapeCast S4x32x4096x128 (G (shapeCast S128x4096x128 Q h1) KV Z) h2 = LinAttn.out Q KV Z := by
  rw [G_eq]
  rfl

end Cert.ReferenceIdeal.RefRead

end
-- ==== Proof.RefValue.lean ====
/-
  The reference's run read back as the specification's function.

  Every weakly fair execution of the reference's @main terminates; its result buffer then holds the fold of the
  twenty-seven operations over the launch contents (`RefRun.run_main`).  Read at the result buffer that fold is

      reshape (G (reshape Q) KV Z)

  with Q, KV, Z the launch contents of the three arguments and G the reference between its two reshapes
  (`RefRead.G`: the features elu + 1, the two batched contractions, ε added to the second, the quotient): each
  operation's result at its own buffer is its function of its operands' contents, at any other buffer what was
  there.  `RefRead.out_eq` says that term is `LinAttn.out Q KV Z`.  No operation writes an argument buffer, so
  the arguments end as they started.
-/
import proofs.«157117_j4999341932652_2_alg».proof.Proof.RefRun
import proofs.«157117_j4999341932652_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxHeartbeats 400000 in
/-- The fold of the operations at the result buffer: the reference between its reshapes, applied to the reshaped
    first argument and the other two, reshaped back.  Each operation's result decides whether the buffer read is
    the one it writes, and the typed references' transports are the identity at these literal references: all of
    it by computation. -/
theorem v10_eq (V : Valuation τ sig (Elt Ideal)) :
    after (RefRun.ops (F := Ideal)) V (main_v10 : DevRef τ sig)
      = shapeCast S4x32x4096x128
          (RefRead.G (shapeCast S128x4096x128 (V (main_arg0 : DevRef τ sig)) shapeCasts_S4x32x4096x128_S128x4096x128)
            (V (main_arg1 : DevRef τ sig)) (V (main_arg2 : DevRef τ sig)))
          shapeCasts_S128x4096x128_S4x32x4096x128 := by
  simp only [after_cons, after_nil]
  rfl

theorem arg0_eq (V : Valuation τ sig (Elt Ideal)) :
    after (RefRun.ops (F := Ideal)) V (main_arg0 : DevRef τ sig) = V (main_arg0 : DevRef τ sig) := by
  after_results

theorem arg1_eq (V : Valuation τ sig (Elt Ideal)) :
    after (RefRun.ops (F := Ideal)) V (main_arg1 : DevRef τ sig) = V (main_arg1 : DevRef τ sig) := by
  after_results

theorem arg2_eq (V : Valuation τ sig (Elt Ideal)) :
    after (RefRun.ops (F := Ideal)) V (main_arg2 : DevRef τ sig) = V (main_arg2 : DevRef τ sig) := by
  after_results

/-- On every device, from any memory with zero counters: every weakly fair execution of the reference's @main
    terminates with the result buffer at `LinAttn.out` of the three arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
        = LinAttn.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨(h c main_v10).trans ((v10_eq (launchContents m c)).trans (RefRead.out_eq _ _ _ _ _)),
        (h c main_arg0).trans (arg0_eq (launchContents m c)),
        (h c main_arg1).trans (arg1_eq (launchContents m c)),
        (h c main_arg2).trans (arg2_eq (launchContents m c))⟩)
    (RefRun.run_main m ρ)

end Cert.ReferenceIdeal.RefValue

end
-- ==== Proof.lean ====
/-
  Linear attention with the feature map φ = elu + 1: a tiled kernel against its einsum reference, over the extended reals.

  Both programs merge the two leading axes of Q [4, 32, 4096, 128] into one batch axis of 128 rows, compute for every
  batch row b, position l and lane e
      (Σ_d φ(X[b,l,d]) · KV[b,d,e]) / (Σ_d φ(X[b,l,d]) · Z[b,d,0] + ε),
  and split the batch axis again (Spec.lean: `LinAttn.out`).  They differ in three ways, none of which changes the
  value at exact arithmetic:
  * the kernel writes φ with one comparison (x + 1 above zero, exp x elsewhere), the reference as elu(x) + 1 through
    expm1; the two agree on every extended real, because exp of a value not above zero is a real number, so taking 1
    away and adding it back cancel (`LinAttn.phiR_eq_phi`);
  * the kernel works on 64 blocks of two batch rows each and takes the normaliser as rows (Z with its last two axes
    exchanged), its numerator by a matrix unit into a zero accumulator after narrowing both operands, its
    denominator by a lane sum; the reference takes both by one contraction each. A contraction, a lane sum and a
    matrix unit onto zero are the same finite sum, narrowing is the identity, and the blocks tile the array;
  * the order of the additions, which no finite sum of extended reals depends on.
  No finiteness of the inputs is used: the precondition is never opened.

  KernelPayload.lean reads the kernel body's stored value at an index; KernelBlocks.lean shows that what each grid
  point writes back is its block of one whole-array function and that the blocks cover the array; KernelRun.lean
  reads the host lines around the region and states the kernel's run; RefRun.lean lists the reference's operations
  and states its run, RefRead.lean reads its result term index by index, RefValue.lean joins the two.  Here the five
  claims are assembled.
-/
import proofs.«157117_j4999341932652_2_alg».proof.Defs
import proofs.«157117_j4999341932652_2_alg».proof.Proof.Gen.Kernel
import proofs.«157117_j4999341932652_2_alg».proof.Proof.Gen.Kernel.Frame
import proofs.«157117_j4999341932652_2_alg».proof.Proof.Gen.KernelIdeal
import proofs.«157117_j4999341932652_2_alg».proof.Proof.Gen.KernelIdeal.Frame
import proofs.«157117_j4999341932652_2_alg».proof.Proof.Gen.ReferenceIdeal
import proofs.«157117_j4999341932652_2_alg».proof.Proof.Gen.Pre_finite_inputs
import proofs.«157117_j4999341932652_2_alg».proof.Proof.KernelRun
import proofs.«157117_j4999341932652_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealisation rewrote nothing: there is nothing to preserve. -/
theorem preserves : Cert.preserves_Kernel_KernelIdeal := trivial

/-- From memories that agree on Q, KV and Z both programs end with the result buffer at `LinAttn.out Q KV Z`. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
